-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  main_v8
-- ==== Kernel.lean ====
abbrev S16x4096x64 : Shape := ⟨3, ![16, 4096, 64]⟩
abbrev S16x4096x1 : Shape := ⟨3, ![16, 4096, 1]⟩
abbrev S16x1x4096 : Shape := ⟨3, ![16, 1, 4096]⟩
abbrev S1x4096x64 : Shape := ⟨3, ![1, 4096, 64]⟩
abbrev S1x512x64 : Shape := ⟨3, ![1, 512, 64]⟩
abbrev S1x4096x1 : Shape := ⟨3, ![1, 4096, 1]⟩
abbrev S1x1x512 : Shape := ⟨3, ![1, 1, 512]⟩
abbrev S4096x1 : Shape := ⟨2, ![4096, 1]⟩
abbrev S4096x64 : Shape := ⟨2, ![4096, 64]⟩
abbrev S512x64 : Shape := ⟨2, ![512, 64]⟩
abbrev S4096 : Shape := ⟨1, ![4096]⟩
abbrev S512 : Shape := ⟨1, ![512]⟩
abbrev S64x512 : Shape := ⟨2, ![64, 512]⟩
abbrev S4096x512 : Shape := ⟨2, ![4096, 512]⟩
abbrev S1x512 : Shape := ⟨2, ![1, 512]⟩
abbrev S_ : Shape := ⟨0, ![]⟩
abbrev S16 : Shape := ⟨1, ![16]⟩

abbrev nBuf : Space → Nat
  | .hbm => 19
  | .vmem => 9
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x1, .f32⟩
  | .hbm, ⟨3, _⟩ => ⟨S16x1x4096, .f32⟩
  | .hbm, ⟨4, _⟩ => ⟨S_, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x4096x64, .f32⟩
  | .local _ .vmem, ⟨1, _⟩ => ⟨S1x4096x64, .f32⟩
  | .local _ .vmem, ⟨2, _⟩ => ⟨S1x512x64, .f32⟩
  | .local _ .vmem, ⟨3, _⟩ => ⟨S1x512x64, .f32⟩
  | .local _ .vmem, ⟨4, _⟩ => ⟨S1x4096x1, .f32⟩
  | .local _ .vmem, ⟨5, _⟩ => ⟨S1x4096x1, .f32⟩
  | .local _ .vmem, ⟨6, _⟩ => ⟨S1x1x512, .f32⟩
  | .local _ .vmem, ⟨7, _⟩ => ⟨S1x1x512, .f32⟩
  | .local _ .vmem, ⟨8, _⟩ => ⟨S4096x1, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_18 : BitVec 32 := 0#32
  let v37 : BitVec 1 := Scalar.cmpi .ne v36 c0_i32_18
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S4096x64_S4096 : S4096x64.Reduces [1] S4096
  reduces_S512x64_S512 : S512x64.Reduces [1] S512
  bitsLt_bf16_f32 : FTy.bits .bf16 < FTy.bits .f32
  transposes_S512x64_p1_0_S64x512 : S512x64.Transposes [1, 0] S64x512
  shapeCasts_S4096_S4096x1 : S4096.ShapeCasts S4096x1
  shapeCasts_S512_S1x512 : S512.ShapeCasts S1x512
  broadcasts_S4096x1_S4096x512 : S4096x1.Broadcasts S4096x512
  broadcasts_S1x512_S4096x512 : S1x512.Broadcasts S4096x512
  reduces_S4096x512_S4096 : S4096x512.Reduces [1] S4096
  reduces_S4096x512_S512 : S4096x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  reducesTo_S16x4096x1_S16_d1_2 : S16x4096x1.ReducesTo [1, 2] S16
  h_S_ : 0 < S_.numel
  bcast_S_S16 : S_.BroadcastsInDim S16 (![] : Fin 0 → Fin S16.rank)
  reducesTo_S16x1x4096_S16_d1_2 : S16x1x4096.ReducesTo [1, 2] S16
  reducesTo_S16_S_d0 : S16.ReducesTo [0] S_
  dot_S4096x64_S64x512_S4096x512_1_0_0_1_n_n_wf : DotDims.WF S4096x64 S64x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S16x4096x64.size a
  hwx0_0 : ∀ i : grid0.Coords, EltTy.bits .f32 = 32 ∨ (Rect.block (s := S16x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S16x4096x64.size a
  hwx0_1 : ∀ i : grid0.Coords, EltTy.bits .f32 = 32 ∨ (Rect.block (s := S16x4096x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S16x4096x1.size a
  hwx0_2 : ∀ i : grid0.Coords, EltTy.bits .f32 = 32 ∨ (Rect.block (s := S16x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x4096.size a
  hwx0_3 : ∀ i : grid0.Coords, EltTy.bits .f32 = 32 ∨ (Rect.block (s := S16x1x4096) S1x1x512.size (cc0_transform_3 i) (hinb0_3 i)).WholeWords (EltTy.packing .f32)

variable [Facts₀]

def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16x4096x64 : Shape := ⟨3, ![16, 4096, 64]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S_, .f32⟩
  | .hbm, ⟨4, _⟩ => ⟨S16x4096, .f32⟩
  | .hbm, ⟨5, _⟩ => ⟨S16x4096x64, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x64_S16x4096x64_S16x4096x4096_2_2_1_1_0_0_wf : DotDims.WF S16x4096x64 S16x4096x64 S16x4096x4096 [2] [2] [1] [1] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf

class Facts : Prop extends Facts₀ where

variable [Facts]
-- ==== Proof.Pieces.lean ====
/-
  What each control case of the kernel body leaves behind, as values.

  The body has three cases, by the tile counter `mi` of the grid point: the first tile of a set (`mi = 0`: the
  running-minimum scratch is first reset to +∞), a middle tile, and the last tile (`mi = 7`: the scratch is also copied
  to the first output's block). In every case the body stores, into the scratch, the row minima of this tile's
  squared distances met with what the scratch held (`k0_pay4`), and, into the second output's block, the column
  minima of this tile (`k0_pay5`). The first case's scratch starts from the reset value (`k0_pay2`), the other two
  from what the point before left. The last case's first output is the scratch just stored, recast (`k0_pay1`).

  Each statement reads the stores the body's run found back as ONE value: the last store through the whole buffer
  wins, and a load of a buffer after such a store reads the stored value.
-/
import proofs.«151696_j60146722013762_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a set -/

/-- The scratch after the first tile: the tile's row minima met with the reset value. -/
theorem scratch_A (c : Dev nD) (i : grid0.Coords) (arg2 : Memref sig .tc .vmem S1x4096x64 .f32) (harg2 : arg2.IsWhole) (arg3 : Memref sig .tc .vmem S1x512x64 .f32) (harg3 : arg3.IsWhole) (arg4 : Memref sig .tc .vmem S1x4096x1 .f32) (harg4 : arg4.IsWhole) (arg5 : Memref sig .tc .vmem S1x1x512 .f32) (harg5 : arg5.IsWhole) (arg6 : Memref sig .tc .vmem S4096x1 .f32) (harg6 : arg6.IsWhole) (hc0 : cond0_0 i) (hc1 : ¬cond0_1 i)
    (x0 : Vec F S1x4096x64 .f32) (x1 : Vec F S1x512x64 .f32) :
    sout0_A_0 c i arg2 harg2 arg3 harg3 arg4 harg4 arg5 harg5 arg6 harg6 hc0 hc1 x0 x1 = k0_pay4 x0 x1 (k0_pay2 (F := F)) := by
  unfold sout0_A_0
  rw [View.read_writes_junk_eq_canon]
  unfold kernelRun0_A
  dsimp only
  sl_unfold_words
  rw [View.canon_cons_unit_zero (S := S4096x1) hz2]
  simp only [View.readAt_eq_ld, harg2.read_unread, harg3.read_unread, harg6.read_unread, View.ld_unit_zero (S := S1x4096x64) hz3,
    View.ld_unit_zero (S := S1x512x64) hz3, View.ld_unit_zero (S := S4096x1) hz2, View.readCov_unit_zero (S := S4096x1) _ hz2,
    View.readCov_cons_toLoadRect]

/-- The second output's block after the first tile: the tile's column minima. -/
theorem out3_A (c : Dev nD) (i : grid0.Coords) (arg2 : Memref sig .tc .vmem S1x4096x64 .f32) (harg2 : arg2.IsWhole) (arg3 : Memref sig .tc .vmem S1x512x64 .f32) (harg3 : arg3.IsWhole) (arg4 : Memref sig .tc .vmem S1x4096x1 .f32) (harg4 : arg4.IsWhole) (arg5 : Memref sig .tc .vmem S1x1x512 .f32) (harg5 : arg5.IsWhole) (arg6 : Memref sig .tc .vmem S4096x1 .f32) (harg6 : arg6.IsWhole) (hc0 : cond0_0 i) (hc1 : ¬cond0_1 i)
    (x0 : Vec F S1x4096x64 .f32) (x1 : Vec F S1x512x64 .f32) :
    out0_A_3 c i arg2 harg2 arg3 harg3 arg4 harg4 arg5 harg5 arg6 harg6 hc0 hc1 x0 x1 = k0_pay5 x0 x1 := by
  unfold out0_A_3
  rw [View.read_writes_junk_eq_canon]
  unfold kernelRun0_A
  dsimp only
  sl_unfold_words
  rw [View.canon_unit_zero (S := S1x1x512) hz3]
  simp only [View.readAt_eq_ld, harg2.read_unread, harg3.read_unread, harg6.read_unread, View.ld_unit_zero (S := S1x4096x64) hz3,
    View.ld_unit_zero (S := S1x512x64) hz3, View.ld_unit_zero (S := S4096x1) hz2, View.readCov_unit_zero (S := S4096x1) _ hz2,
    View.readCov_cons_toLoadRect]

/-! ## A middle tile -/

/-- The scratch after a middle tile: the tile's row minima met with what the point before left. -/
theorem scratch_B (c : Dev nD) (i : grid0.Coords) (arg2 : Memref sig .tc .vmem S1x4096x64 .f32) (harg2 : arg2.IsWhole) (arg3 : Memref sig .tc .vmem S1x512x64 .f32) (harg3 : arg3.IsWhole) (arg4 : Memref sig .tc .vmem S1x4096x1 .f32) (harg4 : arg4.IsWhole) (arg5 : Memref sig .tc .vmem S1x1x512 .f32) (harg5 : arg5.IsWhole) (arg6 : Memref sig .tc .vmem S4096x1 .f32) (harg6 : arg6.IsWhole) (hc0 : ¬cond0_0 i) (hc1 : ¬cond0_1 i)
    (x0 : Vec F S1x4096x64 .f32) (x1 : Vec F S1x512x64 .f32) (xs0 : Vec F S4096x1 .f32) :
    sout0_B_0 c i arg2 harg2 arg3 harg3 arg4 harg4 arg5 harg5 arg6 harg6 hc0 hc1 x0 x1 xs0 = k0_pay4 x0 x1 xs0 := by
  unfold sout0_B_0
  rw [View.read_writes_junk_eq_canon]
  unfold kernelRun0_B
  dsimp only
  sl_unfold_words
  rw [View.canon_unit_zero (S := S4096x1) hz2]
  simp only [View.readAt_eq_ld, harg2.read_unread, harg3.read_unread, harg6.read_unread, View.ld_unit_zero (S := S1x4096x64) hz3,
    View.ld_unit_zero (S := S1x512x64) hz3, View.ld_unit_zero (S := S4096x1) hz2, View.readCov_unit_zero (S := S4096x1) _ hz2,
    View.readCov_cons_toLoadRect]

/-- The second output's block after a middle tile: the tile's column minima. -/
theorem out3_B (c : Dev nD) (i : grid0.Coords) (arg2 : Memref sig .tc .vmem S1x4096x64 .f32) (harg2 : arg2.IsWhole) (arg3 : Memref sig .tc .vmem S1x512x64 .f32) (harg3 : arg3.IsWhole) (arg4 : Memref sig .tc .vmem S1x4096x1 .f32) (harg4 : arg4.IsWhole) (arg5 : Memref sig .tc .vmem S1x1x512 .f32) (harg5 : arg5.IsWhole) (arg6 : Memref sig .tc .vmem S4096x1 .f32) (harg6 : arg6.IsWhole) (hc0 : ¬cond0_0 i) (hc1 : ¬cond0_1 i)
    (x0 : Vec F S1x4096x64 .f32) (x1 : Vec F S1x512x64 .f32) (xs0 : Vec F S4096x1 .f32) :
    out0_B_3 c i arg2 harg2 arg3 harg3 arg4 harg4 arg5 harg5 arg6 harg6 hc0 hc1 x0 x1 xs0 = k0_pay5 x0 x1 := by
  unfold out0_B_3
  rw [View.read_writes_junk_eq_canon]
  unfold kernelRun0_B
  dsimp only
  sl_unfold_words
  rw [View.canon_unit_zero (S := S1x1x512) hz3]
  simp only [View.readAt_eq_ld, harg2.read_unread, harg3.read_unread, harg6.read_unread, View.ld_unit_zero (S := S1x4096x64) hz3,
    View.ld_unit_zero (S := S1x512x64) hz3, View.ld_unit_zero (S := S4096x1) hz2, View.readCov_unit_zero (S := S4096x1) _ hz2,
    View.readCov_cons_toLoadRect]

/-! ## The last tile of a set -/

/-- The scratch after the last tile: the tile's row minima met with what the point before left. -/
theorem scratch_C (c : Dev nD) (i : grid0.Coords) (arg2 : Memref sig .tc .vmem S1x4096x64 .f32) (harg2 : arg2.IsWhole) (arg3 : Memref sig .tc .vmem S1x512x64 .f32) (harg3 : arg3.IsWhole) (arg4 : Memref sig .tc .vmem S1x4096x1 .f32) (harg4 : arg4.IsWhole) (arg5 : Memref sig .tc .vmem S1x1x512 .f32) (harg5 : arg5.IsWhole) (arg6 : Memref sig .tc .vmem S4096x1 .f32) (harg6 : arg6.IsWhole) (hc0 : ¬cond0_0 i) (hc1 : cond0_1 i)
    (x0 : Vec F S1x4096x64 .f32) (x1 : Vec F S1x512x64 .f32) (xs0 : Vec F S4096x1 .f32) :
    sout0_C_0 c i arg2 harg2 arg3 harg3 arg4 harg4 arg5 harg5 arg6 harg6 hc0 hc1 x0 x1 xs0 = k0_pay4 x0 x1 xs0 := by
  unfold sout0_C_0
  rw [View.read_writes_junk_eq_canon]
  unfold kernelRun0_C
  dsimp only
  sl_unfold_words
  rw [View.canon_unit_zero (S := S4096x1) hz2]
  simp only [View.readAt_eq_ld, harg2.read_unread, harg3.read_unread, harg6.read_unread, View.ld_unit_zero (S := S1x4096x64) hz3,
    View.ld_unit_zero (S := S1x512x64) hz3, View.ld_unit_zero (S := S4096x1) hz2, View.readCov_unit_zero (S := S4096x1) _ hz2,
    View.readCov_cons_toLoadRect]

/-- The second output's block after the last tile: the tile's column minima. -/
theorem out3_C (c : Dev nD) (i : grid0.Coords) (arg2 : Memref sig .tc .vmem S1x4096x64 .f32) (harg2 : arg2.IsWhole) (arg3 : Memref sig .tc .vmem S1x512x64 .f32) (harg3 : arg3.IsWhole) (arg4 : Memref sig .tc .vmem S1x4096x1 .f32) (harg4 : arg4.IsWhole) (arg5 : Memref sig .tc .vmem S1x1x512 .f32) (harg5 : arg5.IsWhole) (arg6 : Memref sig .tc .vmem S4096x1 .f32) (harg6 : arg6.IsWhole) (hc0 : ¬cond0_0 i) (hc1 : cond0_1 i)
    (x0 : Vec F S1x4096x64 .f32) (x1 : Vec F S1x512x64 .f32) (xs0 : Vec F S4096x1 .f32) :
    out0_C_3 c i arg2 harg2 arg3 harg3 arg4 harg4 arg5 harg5 arg6 harg6 hc0 hc1 x0 x1 xs0 = k0_pay5 x0 x1 := by
  unfold out0_C_3
  rw [View.read_writes_junk_eq_canon]
  unfold kernelRun0_C
  dsimp only
  sl_unfold_words
  rw [View.canon_unit_zero (S := S1x1x512) hz3]
  simp only [View.readAt_eq_ld, harg2.read_unread, harg3.read_unread, harg6.read_unread, View.ld_unit_zero (S := S1x4096x64) hz3,
    View.ld_unit_zero (S := S1x512x64) hz3, View.ld_unit_zero (S := S4096x1) hz2, View.readCov_unit_zero (S := S4096x1) _ hz2,
    View.readCov_cons_toLoadRect]

/-- The first output's block after the last tile: the scratch just stored, recast with a leading unit axis. -/
theorem out2_C (c : Dev nD) (i : grid0.Coords) (arg2 : Memref sig .tc .vmem S1x4096x64 .f32) (harg2 : arg2.IsWhole) (arg3 : Memref sig .tc .vmem S1x512x64 .f32) (harg3 : arg3.IsWhole) (arg4 : Memref sig .tc .vmem S1x4096x1 .f32) (harg4 : arg4.IsWhole) (arg5 : Memref sig .tc .vmem S1x1x512 .f32) (harg5 : arg5.IsWhole) (arg6 : Memref sig .tc .vmem S4096x1 .f32) (harg6 : arg6.IsWhole) (hc0 : ¬cond0_0 i) (hc1 : cond0_1 i)
    (x0 : Vec F S1x4096x64 .f32) (x1 : Vec F S1x512x64 .f32) (xs0 : Vec F S4096x1 .f32) :
    out0_C_2 c i arg2 harg2 arg3 harg3 arg4 harg4 arg5 harg5 arg6 harg6 hc0 hc1 x0 x1 xs0 = k0_pay1 (k0_pay4 x0 x1 xs0) := by
  unfold out0_C_2
  rw [View.read_writes_junk_eq_canon]
  unfold kernelRun0_C
  dsimp only
  sl_unfold_words
  rw [View.canon_unit_zero (S := S1x4096x1) hz3]
  simp only [View.readAt_eq_ld, harg2.read_unread, harg3.read_unread, harg6.read_unread, View.ld_unit_zero (S := S1x4096x64) hz3,
    View.ld_unit_zero (S := S1x512x64) hz3, View.ld_unit_zero (S := S4096x1) hz2, View.readCov_unit_zero (S := S4096x1) _ hz2,
    View.readCov_cons_toLoadRect]

end Cert.KernelIdeal.Pieces

end
-- ==== Proof.Spec.lean ====
/-
  The Chamfer distance between two batches of point sets, as ONE function of the two argument arrays.

  A batch holds 16 sets of 4096 points with 64 coordinates. For a set `b`, a point `n` of the first batch and a
  point `m` of the second, the squared distance is written the way both programs compute it,

      dist b n m = (|x_n|² + |y_m|²) - 2 · ⟨x_n, y_m⟩ ,

  each of the three terms a sum over the 64 coordinates. The distance from a point to the other set is the minimum of
  `dist` over that set, taken from the accumulator `+∞` (the word 0x7F800000, kept as a word: both programs start
  from it, so it is never evaluated). The result is the mean over the 16 sets of (the mean over `n` of the distance
  from `x_n` to the second set) + (the mean over `m` of the distance from `y_m` to the first set), each mean a sum
  from the word 0 divided by the word of the count.

  The one law of this file is about the minimum over the 4096 points of the second set taken in 8 tiles of 512: the
  running minimum after tiles 0..k is the minimum over the first 512·(k+1) points, whatever value the minimum starts
  from — the minimum is associative, commutative and idempotent, so neither the tiling nor meeting the starting value
  once per tile changes it. It is proved through the universal property of the minimum (`c ≤ min …` iff `c` is below
  every entry), with no case analysis on the extended reals and no use of finiteness.
-/
import Idealize.ShloMosaic.PureOps.Ideal.Laws
import Idealize.ShloMosaic.Lib.ValueIdx

noncomputable section

namespace Cert.Chamfer

open Idealize.ShloMosaic Idealize.ShloMosaic.ValueIdx

/-- A batch of point sets: 16 sets of 4096 points with 64 coordinates. -/
abbrev Sets : Type := (⟨3, ![16, 4096, 64]⟩ : Shape).Idx → EReal

/-- The accumulator every minimum starts from: the word of `+∞`. -/
def inf32 : EReal := Ideal.ofBits .f32 0x7F800000#32
/-- The factor of the cross term: the word of `2.0`. -/
def two32 : EReal := Ideal.ofBits .f32 0x40000000#32
/-- The value every sum of a mean starts from: the word of `0.0`. -/
def zero32 : EReal := Ideal.ofBits .f32 0x00000000#32
/-- The number of points of a set, as the word of `4096.0`. -/
def count32 : EReal := Ideal.ofBits .f32 0x45800000#32
/-- The number of sets of a batch, as the word of `16.0`. -/
def batch32 : EReal := Ideal.ofBits .f32 0x41800000#32

/-- `|x_n|²` in set `b`. -/
def sqNorm (x : Sets) (b : Fin 16) (n : Fin 4096) : EReal := ∑ k : Fin 64, x (ix3 b n k) * x (ix3 b n k)

/-- `⟨x_n, y_m⟩` in set `b`. -/
def inner (x y : Sets) (b : Fin 16) (n m : Fin 4096) : EReal := ∑ k : Fin 64, x (ix3 b n k) * y (ix3 b m k)

/-- The squared distance between point `n` of `x` and point `m` of `y` in set `b`, as both programs spell it. -/
def dist (x y : Sets) (b : Fin 16) (n m : Fin 4096) : EReal :=
  sqNorm x b n + sqNorm y b m - two32 * inner x y b n m

/-- The distance from point `n` of `x` to the set `y`: the minimum over `y`'s points. -/
def toNearestY (x y : Sets) (b : Fin 16) (n : Fin 4096) : EReal :=
  (Finset.univ : Finset (Fin 4096)).fold min inf32 fun m => dist x y b n m

/-- The distance from point `m` of `y` to the set `x`: the minimum over `x`'s points. -/
def toNearestX (x y : Sets) (b : Fin 16) (m : Fin 4096) : EReal :=
  (Finset.univ : Finset (Fin 4096)).fold min inf32 fun n => dist x y b n m

/-- The mean over the sets of the sum of the two means over the points, of two tables of per-point distances. -/
def meanOfMeans (r c : Fin 16 → Fin 4096 → EReal) : EReal :=
  Ideal.div
    (zero32 + ∑ j : (⟨1, ![16]⟩ : Shape).Idx,
      (Ideal.div (zero32 + ∑ n : Fin 4096, r ⟨(j 0).val, (j 0).isLt⟩ n) count32
        + Ideal.div (zero32 + ∑ n : Fin 4096, c ⟨(j 0).val, (j 0).isLt⟩ n) count32))
    batch32

/-- The Chamfer distance of the two batches. -/
def chamfer (x y : Sets) : EReal := meanOfMeans (toNearestY x y) (toNearestX x y)

/-! ## The minimum over 4096 points in 8 tiles of 512 -/

/-- Point `j` of tile `k`. -/
def tileCol (k : Fin 8) (j : Fin 512) : Fin 4096 :=
  ⟨512 * k.val + j.val, by have := k.isLt; have := j.isLt; omega⟩

theorem tileCol_val (k : Fin 8) (j : Fin 512) : (tileCol k j).val = 512 * k.val + j.val := rfl

/-- The minimum, from `I`, of `d` over the first `512 · K` points. -/
def prefixMin (I : EReal) (d : Fin 4096 → EReal) (K : ℕ) : EReal :=
  (Finset.univ.filter fun m : Fin 4096 => m.val < 512 * K).fold min I d

/-- The minimum, from `I`, of `d` over tile `k`. -/
def tileMin (I : EReal) (d : Fin 4096 → EReal) (k : Fin 8) : EReal :=
  (Finset.univ : Finset (Fin 512)).fold min I fun j => d (tileCol k j)

/-- Over no points the minimum is its starting value. -/
theorem prefixMin_zero (I : EReal) (d : Fin 4096 → EReal) : prefixMin I d 0 = I := by
  unfold prefixMin
  rw [Finset.filter_false_of_mem (fun m _ => by omega), Finset.fold_empty]

/-- One more tile: the running minimum met with the tile's minimum is the minimum over the longer prefix. -/
theorem prefixMin_succ (I : EReal) (d : Fin 4096 → EReal) (k : Fin 8) :
    min (prefixMin I d k.val) (tileMin I d k) = prefixMin I d (k.val + 1) := by
  have hk := k.isLt
  refine eq_of_forall_le_iff fun c => ?_
  simp only [prefixMin, tileMin, le_min_iff, Finset.le_fold_min, Finset.mem_filter, Finset.mem_univ, true_and,
    forall_true_left]
  constructor
  · rintro ⟨⟨hI, h1⟩, -, h2⟩
    refine ⟨hI, fun m hm => ?_⟩
    by_cases hlt : m.val < 512 * k.val
    · exact h1 m hlt
    · have e : m = tileCol k ⟨m.val - 512 * k.val, by omega⟩ := Fin.ext (by rw [tileCol_val]; dsimp only; omega)
      rw [e]; exact h2 _
  · rintro ⟨hI, h⟩
    exact ⟨⟨hI, fun m hm => h m (by omega)⟩, hI, fun j => h _ (by have := j.isLt; rw [tileCol_val]; omega)⟩

/-- All eight tiles: the minimum over every point. -/
theorem prefixMin_all (I : EReal) (d : Fin 4096 → EReal) :
    prefixMin I d 8 = (Finset.univ : Finset (Fin 4096)).fold min I d := by
  unfold prefixMin
  rw [Finset.filter_true_of_mem (fun m _ => by have := m.isLt; omega)]

end Cert.Chamfer

end
-- ==== Proof.Blocks.lean ====
/-
  The blocks of the two argument arrays a grid point works on.

  The grid has 16 · 8 points in row-major order: point `t` works on set `t / 8` with tile `t % 8` of the second
  array. Its first block is the whole set `t / 8` of the first array ([1, 4096, 64] at block index (t / 8, 0, 0)); its
  second block is tile `t % 8` (512 points) of set `t / 8` of the second array ([1, 512, 64] at block index
  (t / 8, t % 8, 0)). An element of a block sits in the array at block index × block size + its own coordinate.
-/
import proofs.«151696_j60146722013762_2_alg».proof.Proof.Gen.KernelIdeal.Frame
import proofs.«151696_j60146722013762_2_alg».proof.Proof.Spec
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen Cert.Chamfer

variable {F : FTy → Type} [FloatOps F]
variable (m : (ℓ : Loc nD τ sig) → Buf (Elt F) ℓ)

/-- The set grid point `n` works on. -/
def pointSet (n : ℕ) : Fin 16 := ⟨n / 8 % 16, Nat.mod_lt _ (by decide)⟩
/-- The tile of the second array grid point `n` works on. -/
def pointTile (n : ℕ) : Fin 8 := ⟨n % 8, Nat.mod_lt _ (by decide)⟩

theorem pointSet_val (n : ℕ) : (pointSet n).val = n / 8 % 16 := rfl
theorem pointTile_val (n : ℕ) : (pointTile n).val = n % 8 := rfl

/-- The printed index maps, decided once over the grid: every window's block index at point `t`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = t.val % 8 :=
  (by decide +kernel : ∀ t : Fin grid0.N, _)

/-- The first block at point `t` is set `t / 8` of the first array. -/
theorem iblk0_apply (c : Dev nD) (t : Fin cfg0.N) (r : Fin 4096) (k : Fin 64) :
    (iblk m c 0 t : Vec F S1x4096x64 .f32) (ix3 (0 : Fin 1) r k)
      = m ((c : Thread nD τ).loc main_arg0) (ix3 (pointSet t.val) r k) := by
  have hN : t.val < 128 := lt_of_lt_of_eq t.isLt (show cfg0.N = 128 from N_0)
  obtain ⟨e0, e1, e2, -⟩ := idx_facts t
  unfold iblk
  rw [View.read_apply]
  show m ((c : Thread nD τ).loc main_arg0) _ = _
  refine congrArg _ (funext fun a => Fin.ext ?_)
  match a with
  | ⟨0, _⟩ => show win0_0.index t (0 : Fin 3) * 1 + 1 * 0 = t.val / 8 % 16; omega
  | ⟨1, _⟩ => show win0_0.index t (1 : Fin 3) * 4096 + 1 * r.val = r.val; omega
  | ⟨2, _⟩ => show win0_0.index t (2 : Fin 3) * 64 + 1 * k.val = k.val; omega

/-- The second block at point `t` is tile `t % 8` of set `t / 8` of the second array. -/
theorem iblk1_apply (c : Dev nD) (t : Fin cfg0.N) (j : Fin 512) (k : Fin 64) :
    (iblk m c 1 t : Vec F S1x512x64 .f32) (ix3 (0 : Fin 1) j k)
      = m ((c : Thread nD τ).loc main_arg1) (ix3 (pointSet t.val) (tileCol (pointTile t.val) j) k) := by
  have hN : t.val < 128 := lt_of_lt_of_eq t.isLt (show cfg0.N = 128 from N_0)
  obtain ⟨-, -, -, e0, e1, e2, -⟩ := idx_facts t
  unfold iblk
  rw [View.read_apply]
  show m ((c : Thread nD τ).loc main_arg1) _ = _
  refine congrArg _ (funext fun a => Fin.ext ?_)
  match a with
  | ⟨0, _⟩ => show win0_1.index t (0 : Fin 3) * 1 + 1 * 0 = t.val / 8 % 16; omega
  | ⟨1, _⟩ => show win0_1.index t (1 : Fin 3) * 512 + 1 * j.val = 512 * (t.val % 8) + j.val; omega
  | ⟨2, _⟩ => show win0_1.index t (2 : Fin 3) * 64 + 1 * k.val = k.val; omega

end Cert.KernelIdeal.Blocks

end
-- ==== Proof.TileValues.lean ====
/-
  The arithmetic of one step of the kernel body, read at an index, at the ideal values.

  One step meets a block of 4096 points `u` of the first set with a tile of 512 points `v` of the second, every point
  with 64 coordinates. The body forms the table of squared distances

      d(n, j) = (|u_n|² + |v_j|²) - 2 · ⟨u_n, v_j⟩ ,

  the two squared norms as sums over the 64 coordinates, and the inner product as the matrix product of the block with
  the transposed tile into a zero accumulator (its operands narrowed to sixteen bits first, which is the identity on
  extended reals). Then it takes the minimum of every row of the table, met with the running value of that row, and
  the minimum of every column, each from the word of `+∞`. This file reads the five values the body stores at an index
  as those sums and minima; the literal words stay unevaluated, the same word standing on both sides of each equation.
-/
import proofs.«151696_j60146722013762_2_alg».proof.Proof.Gen.KernelIdeal.Skeleton
import proofs.«151696_j60146722013762_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-! ## Two layout steps read at an index: a column made of a vector, and a column copied along the rows -/

section Layout
variable {α : Type}

/-- An `[a]` array cast to the column `[a, 1]` reads, at `(i, u)`, the operand at `i`: both positions are `i` in
    row-major order, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A reduction over one axis of a matrix, read at an index

The source indices over a reduced index are that index with the dropped axis's coordinate put back: for the sum or the
minimum along a row they are `(n, k)` for every column `k`, along a column `(n, j)` for every row `n`. -/

section Reduce
variable {φ : FTy}

/-- Over the columns of a matrix the index of row `n` with column `k` put back is `(n, k)`. -/
theorem lift_row {a b : ℕ} (h : (⟨2, ![a, b]⟩ : Shape).Reduces [1] ⟨1, ![a]⟩) (n : Fin a) (k : Fin b) :
    h.lift (ix1 n) k = ix2 n k := by
  funext c
  apply Fin.ext
  match c with
  | ⟨0, _⟩ => rfl
  | ⟨1, _⟩ => rfl

/-- Over the rows of a matrix the index of column `j` with row `n` put back is `(n, j)`. -/
theorem lift_col {a b : ℕ} (h : (⟨2, ![a, b]⟩ : Shape).Reduces [0] ⟨1, ![b]⟩) (j : Fin b) (n : Fin a) :
    h.lift (ix1 j) n = ix2 n j := by
  funext c
  apply Fin.ext
  match c with
  | ⟨0, _⟩ => rfl
  | ⟨1, _⟩ => rfl

/-- A minimum reduction over one axis, at the ideal values: the fold of `min` from the accumulator's value over that
    axis's coordinates. The minimum commutes and associates, so the fold over the set of source indices that drop to
    `j` is the fold over the coordinates put back into `j`, which name those indices once each. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits (F := Ideal) φ acc) (src ∘ h.lift j) := by
  rw [multiReduction_minimumf_eq_fold]; exact h.fold_filter_drop_single _ _ src j

/-- The sum along row `n` of a matrix: the sum over the columns of the row's entries. -/
theorem rowSum_apply {a b : ℕ} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (n : Fin a) :
    multiReduction (F := Ideal) .add [1] ⟨1, ![a]⟩ x acc h hφ hacc (ix1 n) = ∑ k : Fin b, x (ix2 n k) :=
  (Ideal.multiReduction_add_single x acc h hφ hacc (ix1 n)).trans
    (Finset.sum_congr rfl fun k _ => congrArg x (lift_row h n k))

/-- The minimum along row `n` of a matrix, from the accumulator's value. -/
theorem rowMin_apply {a b : ℕ} (x : FVec Ideal ⟨2, ![a, b]⟩ φ) (acc : BitVec φ.bits)
    (h : (⟨2, ![a, b]⟩ : Shape).Reduces [1] ⟨1, ![a]⟩) (hφ : FKind.Formats φ)
    (hacc : acc = FKind.minimumf.neutral φ hφ) (n : Fin a) :
    multiReduction (F := Ideal) .minimumf [1] ⟨1, ![a]⟩ x acc h hφ hacc (ix1 n)
      = (Finset.univ : Finset (Fin b)).fold min (Ideal.ofBits φ acc) fun j => x (ix2 n j) :=
  (multiReduction_minimumf_single x acc h hφ hacc (ix1 n)).trans
    (Finset.fold_congr fun j _ => congrArg x (lift_row h n j))

/-- The minimum along column `j` of a matrix, from the accumulator's value. -/
theorem colMin_apply {a b : ℕ} (x : FVec Ideal ⟨2, ![a, b]⟩ φ) (acc : BitVec φ.bits)
    (h : (⟨2, ![a, b]⟩ : Shape).Reduces [0] ⟨1, ![b]⟩) (hφ : FKind.Formats φ)
    (hacc : acc = FKind.minimumf.neutral φ hφ) (j : Fin b) :
    multiReduction (F := Ideal) .minimumf [0] ⟨1, ![b]⟩ x acc h hφ hacc (ix1 j)
      = (Finset.univ : Finset (Fin a)).fold min (Ideal.ofBits φ acc) fun n => x (ix2 n j) :=
  (multiReduction_minimumf_single x acc h hφ hacc (ix1 j)).trans
    (Finset.fold_congr fun n _ => congrArg x (lift_col h j n))

end Reduce

/-! ## The matrix product of the block with the transposed tile, read at an index

The product contracts axis 1 of its left operand with axis 0 of its right one: at the result index `(n, j)` and the
contraction position `k` the left operand is read at `(n, k)` and the right one at `(k, j)`. Into a zero accumulator the
value is the sum of those products over the 64 positions. -/

section Product

/-- The left operand's row is the result's row … -/
theorem lhs_0 (i : S4096x512.Idx) (q : dot_S4096x64_S64x512_S4096x512_1_0_0_1_n_n.contr.Idx) :
    (dot_S4096x64_S64x512_S4096x512_1_0_0_1_n_n.lhsIdx i q 0).val = (i 0).val := by
  unfold DotDims.lhsIdx
  rw [dif_neg (show ¬(0 : Fin S4096x64.rank) ∈ dot_S4096x64_S64x512_S4096x512_1_0_0_1_n_n.lhsBatch by decide), dif_pos (show (0 : Fin S4096x64.rank) ∈ dot_S4096x64_S64x512_S4096x512_1_0_0_1_n_n.lhsNonContracting by decide)]
  rfl
/-- … and its column the contraction position. -/
theorem lhs_1 (i : S4096x512.Idx) (q : dot_S4096x64_S64x512_S4096x512_1_0_0_1_n_n.contr.Idx) :
    (dot_S4096x64_S64x512_S4096x512_1_0_0_1_n_n.lhsIdx i q 1).val = (q ⟨0, by decide⟩).val :=
  dot_S4096x64_S64x512_S4096x512_1_0_0_1_n_n.lhsIdx_val_of_single rfl i q
/-- The right operand's row is the contraction position … -/
theorem rhs_0 (i : S4096x512.Idx) (q : dot_S4096x64_S64x512_S4096x512_1_0_0_1_n_n.contr.Idx) :
    (dot_S4096x64_S64x512_S4096x512_1_0_0_1_n_n.rhsIdx i q 0).val = (q ⟨0, by decide⟩).val :=
  dot_S4096x64_S64x512_S4096x512_1_0_0_1_n_n.rhsIdx_val_of_single rfl i q
/-- … and its column the result's column. -/
theorem rhs_1 (i : S4096x512.Idx) (q : dot_S4096x64_S64x512_S4096x512_1_0_0_1_n_n.contr.Idx) :
    (dot_S4096x64_S64x512_S4096x512_1_0_0_1_n_n.rhsIdx i q 1).val = (i 1).val := by
  unfold DotDims.rhsIdx
  rw [dif_neg (show ¬(1 : Fin S64x512.rank) ∈ dot_S4096x64_S64x512_S4096x512_1_0_0_1_n_n.rhsBatch by decide), dif_pos (show (1 : Fin S64x512.rank) ∈ dot_S4096x64_S64x512_S4096x512_1_0_0_1_n_n.rhsNonContracting by decide)]
  rfl

/-- The product into the zero accumulator at `(n, j)`: the sum over `k` of `A (n, k) · B (k, j)`. -/
theorem matmul_tile_apply (A : FVec Ideal S4096x64 .bf16) (B : FVec Ideal S64x512 .bf16) (n : Fin 4096) (j : Fin 512) :
    matmul (F := Ideal) dot_S4096x64_S64x512_S4096x512_1_0_0_1_n_n none A B (constant (F := Ideal) S4096x512 .f32 0x00000000#32) (ix2 n j)
      = ∑ k : Fin 64, A (ix2 n k) * B (ix2 k j) := by
  simp only [matmul]
  rw [Ideal.matmul_constant_zero_apply, ← Equiv.sum_comp (contrEquiv1 dot_S4096x64_S64x512_S4096x512_1_0_0_1_n_n 64 rfl rfl).symm]
  refine Finset.sum_congr rfl fun k _ => ?_
  have hk := contrEquiv1_symm_val dot_S4096x64_S64x512_S4096x512_1_0_0_1_n_n 64 rfl rfl k
  have el : dot_S4096x64_S64x512_S4096x512_1_0_0_1_n_n.lhsIdx (ix2 n j) ((contrEquiv1 dot_S4096x64_S64x512_S4096x512_1_0_0_1_n_n 64 rfl rfl).symm k) = ix2 n k := funext fun a => Fin.ext (by
    match a with
    | ⟨0, _⟩ => exact lhs_0 _ _
    | ⟨1, _⟩ => exact (lhs_1 _ _).trans hk)
  have er : dot_S4096x64_S64x512_S4096x512_1_0_0_1_n_n.rhsIdx (ix2 n j) ((contrEquiv1 dot_S4096x64_S64x512_S4096x512_1_0_0_1_n_n 64 rfl rfl).symm k) = ix2 k j := funext fun a => Fin.ext (by
    match a with
    | ⟨0, _⟩ => exact (rhs_0 _ _).trans hk
    | ⟨1, _⟩ => exact rhs_1 _ _)
  rw [el, er]

end Product

/-! ## The five values the body stores, read at an index -/

/-- the squared distance between row n of the block and row j of the tile, as the body spells it -/
def tileDist (u : Vec Ideal S1x4096x64 .f32) (v : Vec Ideal S1x512x64 .f32) (n : Fin 4096) (j : Fin 512) : EReal :=
  (∑ k : Fin 64, u (ix3 0 n k) * u (ix3 0 n k)) + (∑ k : Fin 64, v (ix3 0 j k) * v (ix3 0 j k))
    - Cert.Chamfer.two32 * ∑ k : Fin 64, u (ix3 0 n k) * v (ix3 0 j k)

/-- The table of squared distances at `(n, j)`. The squared norm of row `n` of the block reaches the table as a column
    copied along the rows, that of row `j` of the tile as a row copied down the columns; each is the sum along a row
    of the squares. The cross term is the word of `2` times the product of the block with the transposed tile, whose
    entry `(k, j)` is the tile's entry `(j, k)`. Under all of it the block and the tile are read through their
    leading unit axis. -/
theorem pay3_apply (u : Vec Ideal S1x4096x64 .f32) (v : Vec Ideal S1x512x64 .f32) (n : Fin 4096) (j : Fin 512) :
    k0_pay3 (F := Ideal) u v (ix2 n j) = tileDist u v n j := by
  unfold k0_pay3 tileDist Cert.Chamfer.two32
  try dsimp only
  refine (subf_apply _ _ _).trans (congrArg₂ (fun p q : EReal => p - q) ?_ ?_)
  · refine (addf_apply _ _ _).trans (congrArg₂ (fun p q : EReal => p + q) ?_ ?_)
    · exact (broadcastTo_a1_ab_apply _ _ n j).trans ((shapeCast_a_a1_apply _ _ n (0 : Fin 1)).trans
        ((rowSum_apply _ _ _ _ _ n).trans (Finset.sum_congr rfl fun k _ =>
          (mulf_apply _ _ _).trans (congrArg₂ (fun p q : EReal => p * q)
            (shapeCast_1ab_ab_apply u _ n k) (shapeCast_1ab_ab_apply u _ n k)))))
    · exact (broadcastTo_1b_ab_apply _ _ n j).trans ((shapeCast_a_1a_apply _ _ (0 : Fin 1) j).trans
        ((rowSum_apply _ _ _ _ _ j).trans (Finset.sum_congr rfl fun k _ =>
          (mulf_apply _ _ _).trans (congrArg₂ (fun p q : EReal => p * q)
            (shapeCast_1ab_ab_apply v _ j k) (shapeCast_1ab_ab_apply v _ j k)))))
  · refine (mulf_apply _ _ _).trans (congrArg₂ (fun p q : EReal => p * q) ?_ ?_)
    · exact (broadcast_apply _ _).trans (Ideal.ofBits_def _)
    · exact (matmul_tile_apply _ _ n j).trans (Finset.sum_congr rfl fun k _ =>
        congrArg₂ (fun p q : EReal => p * q)
          ((truncf_apply (ψ := .bf16) (shapeCast S4096x64 u shapeCasts_S1x4096x64_S4096x64) bitsLt_bf16_f32 (ix2 n k)).trans
            (shapeCast_1ab_ab_apply u _ n k))
          ((transpose_ix2_apply _ _ k j).trans
            ((truncf_apply (ψ := .bf16) (shapeCast S512x64 v shapeCasts_S1x512x64_S512x64) bitsLt_bf16_f32 (ix2 j k)).trans
              (shapeCast_1ab_ab_apply v _ j k))))

/-- The running minimum of row `n` after this tile: the value it had, met with the minimum of the row of the table
    from the word of `+∞`. -/
theorem pay4_apply (u : Vec Ideal S1x4096x64 .f32) (v : Vec Ideal S1x512x64 .f32) (s : Vec Ideal S4096x1 .f32) (n : Fin 4096) :
    k0_pay4 (F := Ideal) u v s (ix2 n 0) = min (s (ix2 n 0)) ((Finset.univ : Finset (Fin 512)).fold min Cert.Chamfer.inf32 fun j => tileDist u v n j) := by
  unfold k0_pay4 Cert.Chamfer.inf32
  try dsimp only
  refine (congrFun (shapeCast_self _ _) (ix2 n (0 : Fin 1))).trans ?_
  refine (minimumf_apply _ _ _).trans (congrArg (fun m : EReal => min (s (ix2 n (0 : Fin 1))) m) ?_)
  exact (shapeCast_a_a1_apply _ _ n (0 : Fin 1)).trans ((rowMin_apply _ _ _ _ _ n).trans
    (Finset.fold_congr fun j _ => pay3_apply u v n j))

/-- The minimum of column `j` of the table over the block's 4096 rows, from the word of `+∞`. -/
theorem pay5_apply (u : Vec Ideal S1x4096x64 .f32) (v : Vec Ideal S1x512x64 .f32) (j : Fin 512) :
    k0_pay5 (F := Ideal) u v (ix3 0 0 j) = (Finset.univ : Finset (Fin 4096)).fold min Cert.Chamfer.inf32 fun n => tileDist u v n j := by
  unfold k0_pay5 Cert.Chamfer.inf32
  try dsimp only
  exact (shapeCast_ab_1ab_apply _ _ (0 : Fin 1) (0 : Fin 1) j).trans ((shapeCast_a_1a_apply _ _ (0 : Fin 1) j).trans
    ((colMin_apply _ _ _ _ _ j).trans (Finset.fold_congr fun n _ => pay3_apply u v n j)))

/-- The running minima start from the word of `+∞` in every row. -/
theorem pay2_apply (n : Fin 4096) : k0_pay2 (F := Ideal) (ix2 n 0) = Cert.Chamfer.inf32 := by
  unfold k0_pay2 Cert.Chamfer.inf32
  try dsimp only
  exact (congrFun (shapeCast_self _ _) (ix2 n (0 : Fin 1))).trans ((broadcast_apply _ _).trans (Ideal.ofBits_def _))

/-- The column of running minima is written out under a leading unit axis, entry for entry. -/
theorem pay1_apply (s : Vec Ideal S4096x1 .f32) (n : Fin 4096) : k0_pay1 (F := Ideal) s (ix3 0 n 0) = s (ix2 n 0) := by
  unfold k0_pay1
  try dsimp only
  exact shapeCast_ab_1ab_apply s _ (0 : Fin 1) n (0 : Fin 1)

end Cert.KernelIdeal.TileValue

end
-- ==== Proof.Invariant.lean ====
/-
  What the kernel's buffers hold after each grid point, at the ideal instance.

  Point `t` works on set `b = t / 8` with tile `k = t % 8`. Its blocks are rows of the two argument arrays
  (Blocks), so the tile's squared distances are `dist b r (512·k + j)` of the specification. Then:
    · the second output's block after point `t` holds, at column `j`, the minimum over ALL rows `r` of
      `dist b r (512·k + j)`: the distance from point `512·k + j` of the second set to the first set — final at once,
      because the whole first set is in the block;
    · the scratch after point `t` holds, at row `r`, the minimum of `dist b r ·` over the first `512·(k+1)` points
      of the second set: by induction on the point, one tile joining the running minimum at a time
      (`prefixMin_succ`), the first tile of a set starting from the reset value (`prefixMin_zero`);
    · at the last tile of a set the first output's block is that scratch, now the minimum over every point of the
      second set (`prefixMin_all`): the distance from point `r` of the first set to the second set.
-/
import proofs.«151696_j60146722013762_2_alg».proof.Proof.Pieces
import proofs.«151696_j60146722013762_2_alg».proof.Proof.Blocks
import proofs.«151696_j60146722013762_2_alg».proof.Proof.TileValues

noncomputable section

open Idealize.ShloMosaic Idealize.ShloMosaic.TcCoe Idealize.SL.Sem Idealize.ShloMosaic.ValueIdx

namespace Cert.KernelIdeal.Invariant

open Cert.KernelIdeal Cert.KernelIdeal.Gen Cert.Chamfer Cert.KernelIdeal.Blocks Cert.KernelIdeal.TileValue

variable (m : (ℓ : Loc nD τ sig) → Buf (Elt Ideal) ℓ)

/-- The first argument array on core `c`. -/
abbrev argX (c : Dev nD) : Sets := m ((c : Thread nD τ).loc main_arg0)
/-- The second argument array on core `c`. -/
abbrev argY (c : Dev nD) : Sets := m ((c : Thread nD τ).loc main_arg1)

/-! ## One tile, over blocks that are rows of the arrays -/

section Tile

variable (A B : Sets) (b : Fin 16) (k : Fin 8) (x0 : Vec Ideal S1x4096x64 .f32) (x1 : Vec Ideal S1x512x64 .f32)
  (h0 : ∀ r q, x0 (ix3 (0 : Fin 1) r q) = A (ix3 b r q))
  (h1 : ∀ j q, x1 (ix3 (0 : Fin 1) j q) = B (ix3 b (tileCol k j) q))

include h0 h1

/-- The tile's squared distances are the specification's, at the tile's columns. -/
theorem tileDist_eq (r : Fin 4096) (j : Fin 512) : tileDist x0 x1 r j = Cert.Chamfer.dist A B b r (tileCol k j) := by
  unfold tileDist Cert.Chamfer.dist Cert.Chamfer.sqNorm Cert.Chamfer.inner
  simp only [h0, h1]

/-- The tile's column minima: the distance from each of its points to the first set. -/
theorem colMin_eq (j : Fin 512) :
    k0_pay5 (F := Ideal) x0 x1 (ix3 (0 : Fin 1) (0 : Fin 1) j) = toNearestX A B b (tileCol k j) := by
  rw [pay5_apply]
  unfold toNearestX
  exact Finset.fold_congr fun r _ => tileDist_eq A B b k x0 x1 h0 h1 r j

/-- One more tile joins the running row minimum. -/
theorem rowMin_step (s : Vec Ideal S4096x1 .f32) (r : Fin 4096)
    (hs : s (ix2 r (0 : Fin 1)) = prefixMin inf32 (fun q => Cert.Chamfer.dist A B b r q) k.val) :
    k0_pay4 (F := Ideal) x0 x1 s (ix2 r (0 : Fin 1)) = prefixMin inf32 (fun q => Cert.Chamfer.dist A B b r q) (k.val + 1) := by
  rw [pay4_apply, hs, ← prefixMin_succ inf32 (fun q => Cert.Chamfer.dist A B b r q) k]
  refine congrArg (min _) ?_
  unfold tileMin
  exact Finset.fold_congr fun j _ => tileDist_eq A B b k x0 x1 h0 h1 r j

end Tile

/-! ## After each point -/

/-- The second output's block after point `t`: the distances from the tile's points to the first set. -/
theorem out3_at (c : Dev nD) (t : Fin cfg0.N) (j : Fin 512) :
    (outsAt0 m c t.val t.isLt).2.1 (ix3 (0 : Fin 1) (0 : Fin 1) j)
      = toNearestX (argX m c) (argY m c) (pointSet t.val) (tileCol (pointTile t.val) j) := by
  have hcol := colMin_eq (argX m c) (argY m c) (pointSet t.val) (pointTile t.val) (iblk m c 0 t) (iblk m c 1 t)
    (iblk0_apply m c t) (iblk1_apply m c t) j
  have hn' : t.val - 1 < cfg0.N := Nat.lt_of_le_of_lt (Nat.sub_le _ _) t.isLt
  by_cases h0 : t.val % 8 = 0
  · have h1 : ¬t.val % 8 = 7 := by omega
    have e := Pieces.out3_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
    rw [outsAt0_A m c t h0 h1]
    dsimp only
    rw [e]
    exact hcol
  · by_cases h1 : t.val % 8 = 7
    · have e := Pieces.out3_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) ((outsAt0 m c (t.val - 1) hn').2.2)
      rw [outsAt0_C m c t h0 h1]
      dsimp only
      rw [e]
      exact hcol
    · have e := Pieces.out3_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) ((outsAt0 m c (t.val - 1) hn').2.2)
      rw [outsAt0_B m c t h0 h1]
      dsimp only
      rw [e]
      exact hcol

/-- The scratch after point `n`: the running minimum over the tiles of the point's set seen so far. -/
theorem scratch_at (c : Dev nD) : ∀ (n : ℕ) (hn : n < cfg0.N) (r : Fin 4096),
    (outsAt0 m c n hn).2.2 (ix2 r (0 : Fin 1))
      = prefixMin inf32 (fun q => Cert.Chamfer.dist (argX m c) (argY m c) (pointSet n) r q) (n % 8 + 1) := by
  intro n
  induction n using Nat.strong_induction_on with
  | _ n ih =>
    intro hn r
    have hN : n < 128 := lt_of_lt_of_eq hn (show cfg0.N = 128 from N_0)
    have step := rowMin_step (argX m c) (argY m c) (pointSet n) (pointTile n) (iblk m c 0 ⟨n, hn⟩) (iblk m c 1 ⟨n, hn⟩)
      (iblk0_apply m c ⟨n, hn⟩) (iblk1_apply m c ⟨n, hn⟩)
    rw [pointTile_val] at step
    by_cases h0 : n % 8 = 0
    · have h1 : ¬n % 8 = 7 := by omega
      have e := Pieces.scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩)
      rw [outsAt0_A m c ⟨n, hn⟩ h0 h1]
      dsimp only
      rw [e]
      exact step (k0_pay2 (F := Ideal)) r (by rw [pay2_apply, h0, prefixMin_zero])
    · have hn' : n - 1 < cfg0.N := Nat.lt_of_le_of_lt (Nat.sub_le _ _) hn
      have hprev := ih (n - 1) (by omega) hn' r
      have hset : pointSet (n - 1) = pointSet n := Fin.ext (by rw [pointSet_val, pointSet_val]; omega)
      rw [hset, show (n - 1) % 8 + 1 = n % 8 from by omega] at hprev
      by_cases h1 : n % 8 = 7
      · have e := Pieces.scratch_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) ((outsAt0 m c (n - 1) hn').2.2)
        rw [outsAt0_C m c ⟨n, hn⟩ h0 h1]
        dsimp only
        rw [e]
        exact step _ r hprev
      · have e := Pieces.scratch_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) ((outsAt0 m c (n - 1) hn').2.2)
        rw [outsAt0_B m c ⟨n, hn⟩ h0 h1]
        dsimp only
        rw [e]
        exact step _ r hprev

/-- The first output's block after the last tile of a set: the distances from the first set's points to the second set. -/
theorem out2_at (c : Dev nD) (t : Fin cfg0.N) (h1 : t.val % 8 = 7) (r : Fin 4096) :
    (outsAt0 m c t.val t.isLt).1 (ix3 (0 : Fin 1) r (0 : Fin 1)) = toNearestY (argX m c) (argY m c) (pointSet t.val) r := by
  have h0 : ¬t.val % 8 = 0 := by omega
  have hN : t.val < 128 := lt_of_lt_of_eq t.isLt (show cfg0.N = 128 from N_0)
  have step := rowMin_step (argX m c) (argY m c) (pointSet t.val) (pointTile t.val) (iblk m c 0 t) (iblk m c 1 t)
    (iblk0_apply m c t) (iblk1_apply m c t)
  rw [pointTile_val] at step
  have hn' : t.val - 1 < cfg0.N := Nat.lt_of_le_of_lt (Nat.sub_le _ _) t.isLt
  have hprev := scratch_at m c (t.val - 1) hn' r
  have hset : pointSet (t.val - 1) = pointSet t.val := Fin.ext (by rw [pointSet_val, pointSet_val]; omega)
  rw [hset, show (t.val - 1) % 8 + 1 = t.val % 8 from by omega] at hprev
  have e := Pieces.out2_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) ((outsAt0 m c (t.val - 1) hn').2.2)
  rw [outsAt0_C m c t h0 h1]
  dsimp only
  rw [e]
  refine (pay1_apply _ r).trans ?_
  refine (step _ r hprev).trans ?_
  rw [h1]
  exact prefixMin_all _ _

end Cert.KernelIdeal.Invariant

end
-- ==== Proof.Arrays.lean ====
/-
  The kernel's two result arrays after the run, as whole-array functions of the argument arrays.

  The first result, [16, 4096, 1], is written back one set at a time, after the last tile of the set: block
  (b, 0, 0) holds, at row `r`, the distance from point `r` of set `b` of the first array to set `b` of the second.
  The second result, [16, 1, 4096], is written back at every point: block (b, 0, k) holds, at column `j`, the distance
  from point `512·k + j` of set `b` of the second array to set `b` of the first. In both cases what a point writes
  back is the block of ONE function of the array index, and the blocks that are written back cover the array (the
  point that covers (b, r, 0) is the last tile of set `b`; the point that covers (b, 0, q) is tile `q / 512` of
  set `b`), so each array ends holding that function.
-/
import proofs.«151696_j60146722013762_2_alg».proof.Proof.Invariant

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Chamfer Cert.KernelIdeal.Blocks Cert.KernelIdeal.Invariant

variable (m : (ℓ : Loc nD τ sig) → Buf (Elt Ideal) ℓ)

/-- The first result array: the distance from each point of the first array to its set of the second. -/
abbrev nearY (A B : Sets) : S16x4096x1.Idx → EReal :=
  fun i => toNearestY A B ⟨(i 0).val, (i 0).isLt⟩ ⟨(i 1).val, (i 1).isLt⟩

/-- The second result array: the distance from each point of the second array to its set of the first. -/
abbrev nearX (A B : Sets) : S16x1x4096.Idx → EReal :=
  fun i => toNearestX A B ⟨(i 0).val, (i 0).isLt⟩ ⟨(i 2).val, (i 2).isLt⟩

/-! ## The first result -/

/-- What a write-back of the first result writes is the block of `nearY`. -/
theorem flushed2_eq (c : Dev nD) (t : Fin cfg0.N) (hf : (cfg0.win 2).flush t = true) :
    (dats m 0 c).flushed 2 t = ((cfg0.win 2).blk t).view.read (Elt Ideal) (nearY (argX m c) (argY m c)) := by
  have h7 : t.val % 8 = 7 := (flush0_2 t).mp hf
  have hN : t.val < 128 := lt_of_lt_of_eq t.isLt (show cfg0.N = 128 from N_0)
  obtain ⟨-, -, -, -, -, -, e0, e1, e2, -⟩ := idx_facts t
  show (cfg0.win 2).cut (grid0.coords t) ((dats m 0 c).after 2 t) = _
  rw [after0_2]
  funext j
  obtain ⟨z, r, z', rfl⟩ : ∃ (z : Fin 1) (r : Fin 4096) (z' : Fin 1), j = ix3 z r z' := ⟨j 0, j 1, j 2, eq_ix3 j⟩
  obtain rfl : z = 0 := Subsingleton.elim _ _
  obtain rfl : z' = 0 := Subsingleton.elim _ _
  rw [View.read_apply]
  refine (out2_at m c t h7 r).trans ?_
  show toNearestY _ _ (pointSet t.val) r = toNearestY _ _ ⟨_, _⟩ ⟨_, _⟩
  congr 1 <;> apply Fin.ext
  · show t.val / 8 % 16 = win0_2.index t (0 : Fin 3) * 1 + 1 * 0; omega
  · show r.val = win0_2.index t (1 : Fin 3) * 4096 + 1 * r.val; omega

/-- An index of the first result is in point `t`'s block iff each coordinate is in the block's range on its axis. -/
theorem mem_blk2 (t : Fin cfg0.N) (i : S16x4096x1.Idx) :
    i ∈ ((cfg0.win 2).blk t).view.set ↔ ∀ a : Fin 3, win0_2.index t a * S1x4096x1.size a ≤ (i a).val ∧ (i a).val < win0_2.index t a * S1x4096x1.size a + S1x4096x1.size a := by
  show i ∈ ((View.whole main_v0_0).slice (win0_2.rect t)).set ↔ _
  rw [View.set_slice_whole, Rect.mem_set_unit]
  exact Iff.rfl

/-- Every index of the first result is written back: by the last tile of its set. -/
theorem cover2 (i : S16x4096x1.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1 := (i 2).isLt
  have ht : 8 * (i 0).val + 7 < cfg0.N := lt_of_lt_of_eq (by omega : 8 * (i 0).val + 7 < 128) (show cfg0.N = 128 from N_0).symm
  obtain ⟨-, -, -, -, -, -, e0, e1, e2, -⟩ := idx_facts ⟨8 * (i 0).val + 7, ht⟩
  dsimp only at e0 e1 e2
  refine ⟨⟨8 * (i 0).val + 7, ht⟩, (flush0_2 _).mpr (by dsimp only; omega), ?_⟩
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 4096 ≤ (i 1).val ∧ (i 1).val < win0_2.index _ (1 : Fin 3) * 4096 + 4096; omega
  | ⟨2, _⟩ => show win0_2.index _ (2 : Fin 3) * 1 ≤ (i 2).val ∧ (i 2).val < win0_2.index _ (2 : Fin 3) * 1 + 1; omega

/-- The first result array after the run. -/
theorem final2 (c : Dev nD) : (dats m 0 c).arrAt 2 cfg0.N = nearY (argX m c) (argY m c) :=
  (dats m 0 c).arrAt_eq_of_cover 2 (nearY (argX m c) (argY m c)) (fun t hf => flushed2_eq m c t hf) cover2

/-! ## The second result -/

/-- What a write-back of the second result writes is the block of `nearX`. -/
theorem flushed3_eq (c : Dev nD) (t : Fin cfg0.N) :
    (dats m 0 c).flushed 3 t = ((cfg0.win 3).blk t).view.read (Elt Ideal) (nearX (argX m c) (argY m c)) := by
  have hN : t.val < 128 := lt_of_lt_of_eq t.isLt (show cfg0.N = 128 from N_0)
  obtain ⟨-, -, -, -, -, -, -, -, -, e0, e1, e2⟩ := idx_facts t
  show (cfg0.win 3).cut (grid0.coords t) ((dats m 0 c).after 3 t) = _
  rw [after0_3]
  funext j
  obtain ⟨z, z', q, rfl⟩ : ∃ (z : Fin 1) (z' : Fin 1) (q : Fin 512), j = ix3 z z' q := ⟨j 0, j 1, j 2, eq_ix3 j⟩
  obtain rfl : z = 0 := Subsingleton.elim _ _
  obtain rfl : z' = 0 := Subsingleton.elim _ _
  rw [View.read_apply]
  refine (out3_at m c t q).trans ?_
  show toNearestX _ _ (pointSet t.val) (tileCol (pointTile t.val) q) = toNearestX _ _ ⟨_, _⟩ ⟨_, _⟩
  congr 1 <;> apply Fin.ext
  · show t.val / 8 % 16 = win0_3.index t (0 : Fin 3) * 1 + 1 * 0; omega
  · show 512 * (t.val % 8) + q.val = win0_3.index t (2 : Fin 3) * 512 + 1 * q.val; omega

/-- An index of the second result is in point `t`'s block iff each coordinate is in the block's range on its axis. -/
theorem mem_blk3 (t : Fin cfg0.N) (i : S16x1x4096.Idx) :
    i ∈ ((cfg0.win 3).blk t).view.set ↔ ∀ a : Fin 3, win0_3.index t a * S1x1x512.size a ≤ (i a).val ∧ (i a).val < win0_3.index t a * S1x1x512.size a + S1x1x512.size a := by
  show i ∈ ((View.whole main_v0_1).slice (win0_3.rect t)).set ↔ _
  rw [View.set_slice_whole, Rect.mem_set_unit]
  exact Iff.rfl

/-- Every index of the second result is written back: by the tile of its set that holds its column. -/
theorem cover3 (i : S16x1x4096.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 4096 := (i 2).isLt
  have ht : 8 * (i 0).val + (i 2).val / 512 < cfg0.N :=
    lt_of_lt_of_eq (by omega : 8 * (i 0).val + (i 2).val / 512 < 128) (show cfg0.N = 128 from N_0).symm
  obtain ⟨-, -, -, -, -, -, -, -, -, e0, e1, e2⟩ := idx_facts ⟨8 * (i 0).val + (i 2).val / 512, ht⟩
  dsimp only at e0 e1 e2
  refine ⟨⟨8 * (i 0).val + (i 2).val / 512, ht⟩, flush0_3 _, ?_⟩
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 512 ≤ (i 2).val ∧ (i 2).val < win0_3.index _ (2 : Fin 3) * 512 + 512; omega

/-- The second result array after the run. -/
theorem final3 (c : Dev nD) : (dats m 0 c).arrAt 3 cfg0.N = nearX (argX m c) (argY m c) :=
  (dats m 0 c).arrAt_eq_of_cover 3 (nearX (argX m c) (argY m c)) (fun t _ => flushed3_eq m c t) cover3

end Cert.KernelIdeal.Arrays

end
-- ==== Proof.HostTail.lean ====
/-
  The arithmetic that follows the kernel, read as ONE function of the kernel's two result arrays.

  The kernel leaves two tables of per-point distances: for every set b, the distance from each of the 4096 points of
  the first batch to the second set, stored as an array [16, 4096, 1], and the distance from each point of the second
  batch to the first set, stored as [16, 1, 4096]. What follows is

      mean over the 16 sets of ( mean over the points of the first table + mean over the points of the second ),

  each mean a sum started from the word of 0.0 and divided by the word of the count. A sum over the two trailing axes
  of a rank-3 array one of whose trailing axes has extent one is a sum over the 4096 points: the indices that drop to
  the set b are exactly (b, n, 0) (or (b, 0, m)), one per point, because a coordinate below one is zero. The sum over
  the last remaining axis into a rank-0 result is the sum over all 16 sets. With that the composition is, word for
  word, the specification's mean of means of the two tables; no float word is evaluated on the way.
-/
import proofs.«151696_j60146722013762_2_alg».proof.Proof.Gen.KernelIdeal
import proofs.«151696_j60146722013762_2_alg».proof.Proof.Spec
import Idealize.ShloMosaic.Lib.ValueIdx
import Idealize.ShloMosaic.Lib.Pipeline.Value
import Idealize.ShloMosaic.PureOps.Ideal.Laws

noncomputable section

namespace Cert.KernelIdeal.TailValue

open Cert.KernelIdeal Cert.KernelIdeal.Gen Idealize.ShloMosaic Idealize.ShloMosaic.ValueIdx

/-- the host operations after the kernel, as one function of its two result arrays -/
def hostTail (o0 : (⟨S16x4096x1, .f32⟩ : BufTy).Contents (Elt Ideal)) (o1 : (⟨S16x1x4096, .f32⟩ : BufTy).Contents (Elt Ideal)) :
    (⟨S_, .f32⟩ : BufTy).Contents (Elt Ideal) :=
  Host.divf (F := Ideal)
    (Host.reduceAdd (F := Ideal)
      (addf
        (Host.divf (F := Ideal) (Host.reduceAdd (F := Ideal) o0 (constant (F := Ideal) S_ .f32 0x00000000#32) reducesTo_S16x4096x1_S16_d1_2 h_S_)
          (broadcastInDim S16 ![] bcast_S_S16 (constant (F := Ideal) S_ .f32 0x45800000#32)))
        (Host.divf (F := Ideal) (Host.reduceAdd (F := Ideal) o1 (constant (F := Ideal) S_ .f32 0x00000000#32) reducesTo_S16x1x4096_S16_d1_2 h_S_)
          (broadcastInDim S16 ![] bcast_S_S16 (constant (F := Ideal) S_ .f32 0x45800000#32))))
      (constant (F := Ideal) S_ .f32 0x00000000#32) reducesTo_S16_S_d0 h_S_)
    (constant (F := Ideal) S_ .f32 0x41800000#32)

/-! ## The quotient of two arrays at an index -/

/-- At the extended reals the host's quotient of two arrays is, at each index, the quotient of the two entries. -/
theorem hostDivf_apply {s : Shape} (x y : FVec Ideal s .f32) (i : s.Idx) :
    Host.divf (F := Ideal) (φ := .f32) x y i = Ideal.div (x i) (y i) := rfl

/-! ## The first table: [16, 4096, 1] summed over its two trailing axes -/

/-- Dropping the two trailing coordinates of (b, n, z) leaves (b). -/
theorem drop_rows (b : Fin 16) (n : Fin 4096) (z : Fin 1) :
    reducesTo_S16x4096x1_S16_d1_2.drop (ix3 b n z) = ix1 b := by
  funext a
  match a with
  | ⟨0, _⟩ => rfl

/-- Point n of set b, as an index of the first table. -/
def rowEmb (b : Fin 16) : Fin 4096 ↪ S16x4096x1.Idx :=
  ⟨fun n => ix3 b n (0 : Fin 1), fun n n' h => by have := congrFun h 1; exact this⟩

/-- The indices of the first table that drop to the set b are its 4096 points (b, n, 0): the last coordinate is below
    one, so it is zero. -/
theorem filter_rows (b : Fin 16)
    [DecidablePred fun i : S16x4096x1.Idx => reducesTo_S16x4096x1_S16_d1_2.drop i = ix1 b] :
    Finset.univ.filter (fun i : S16x4096x1.Idx => reducesTo_S16x4096x1_S16_d1_2.drop i = ix1 b)
      = Finset.univ.map (rowEmb b) := by
  ext i
  simp only [Finset.mem_filter, Finset.mem_univ, true_and, Finset.mem_map, rowEmb, Function.Embedding.coeFn_mk]
  constructor
  · intro h
    obtain ⟨a, n, z, rfl⟩ : ∃ (a : Fin 16) (n : Fin 4096) (z : Fin 1), i = ix3 a n z := ⟨_, _, _, eq_ix3 i⟩
    rw [drop_rows] at h
    obtain rfl : a = b := congrFun h 0
    obtain rfl : z = 0 := Subsingleton.elim _ _
    exact ⟨n, rfl⟩
  · rintro ⟨n, rfl⟩
    exact drop_rows b n 0

/-- So the host's sum of the first table over its two trailing axes is, at the set b, the initial value plus the sum
    over the 4096 points. -/
theorem sum_rows (x : FVec Ideal S16x4096x1 .f32) (init : FVec Ideal S_ .f32) (b : Fin 16) :
    Host.reduceAdd (F := Ideal) (φ := .f32) x init reducesTo_S16x4096x1_S16_d1_2 h_S_ (ix1 b)
      = init (Shape.Idx.first h_S_) + ∑ n : Fin 4096, x (ix3 b n (0 : Fin 1)) := by
  simp only [Host.reduceAdd, Ideal.hostReduceAdd_def]
  unfold Ideal.hostReduceAdd
  rw [filter_rows b, Finset.sum_map]
  rfl

/-! ## The second table: [16, 1, 4096] summed over its two trailing axes -/

/-- Dropping the two trailing coordinates of (b, z, m) leaves (b). -/
theorem drop_cols (b : Fin 16) (z : Fin 1) (m : Fin 4096) :
    reducesTo_S16x1x4096_S16_d1_2.drop (ix3 b z m) = ix1 b := by
  funext a
  match a with
  | ⟨0, _⟩ => rfl

/-- Point m of set b, as an index of the second table. -/
def colEmb (b : Fin 16) : Fin 4096 ↪ S16x1x4096.Idx :=
  ⟨fun m => ix3 b (0 : Fin 1) m, fun m m' h => by have := congrFun h 2; exact this⟩

/-- The indices of the second table that drop to the set b are its 4096 points (b, 0, m). -/
theorem filter_cols (b : Fin 16)
    [DecidablePred fun i : S16x1x4096.Idx => reducesTo_S16x1x4096_S16_d1_2.drop i = ix1 b] :
    Finset.univ.filter (fun i : S16x1x4096.Idx => reducesTo_S16x1x4096_S16_d1_2.drop i = ix1 b)
      = Finset.univ.map (colEmb b) := by
  ext i
  simp only [Finset.mem_filter, Finset.mem_univ, true_and, Finset.mem_map, colEmb, Function.Embedding.coeFn_mk]
  constructor
  · intro h
    obtain ⟨a, z, m, rfl⟩ : ∃ (a : Fin 16) (z : Fin 1) (m : Fin 4096), i = ix3 a z m := ⟨_, _, _, eq_ix3 i⟩
    rw [drop_cols] at h
    obtain rfl : a = b := congrFun h 0
    obtain rfl : z = 0 := Subsingleton.elim _ _
    exact ⟨m, rfl⟩
  · rintro ⟨m, rfl⟩
    exact drop_cols b 0 m

/-- So the host's sum of the second table over its two trailing axes is, at the set b, the initial value plus the sum
    over the 4096 points. -/
theorem sum_cols (x : FVec Ideal S16x1x4096 .f32) (init : FVec Ideal S_ .f32) (b : Fin 16) :
    Host.reduceAdd (F := Ideal) (φ := .f32) x init reducesTo_S16x1x4096_S16_d1_2 h_S_ (ix1 b)
      = init (Shape.Idx.first h_S_) + ∑ m : Fin 4096, x (ix3 b (0 : Fin 1) m) := by
  simp only [Host.reduceAdd, Ideal.hostReduceAdd_def]
  unfold Ideal.hostReduceAdd
  rw [filter_cols b, Finset.sum_map]
  rfl

/-! ## The sum over the sets -/

/-- The host's sum of a [16] array over its one axis, into a rank-0 result, is the initial value plus the sum over
    all of its indices. -/
theorem sum_sets (v : FVec Ideal S16 .f32) (init : FVec Ideal S_ .f32) (i : S_.Idx) :
    Host.reduceAdd (F := Ideal) (φ := .f32) v init reducesTo_S16_S_d0 h_S_ i
      = init (Shape.Idx.first h_S_) + ∑ j : S16.Idx, v j := by
  simp only [Host.reduceAdd, Ideal.hostReduceAdd_def]
  exact Ideal.hostReduceAdd_total reducesTo_S16_S_d0 (fun b => b.elim0) v _ i

/-! ## The two means of a set -/

/-- The mean over the points of the first table, at the set b: the sum from the word of 0.0 divided by the word of
    the count, which the broadcast reads at every set. -/
theorem mean_rows (o0 : (⟨S16x4096x1, .f32⟩ : BufTy).Contents (Elt Ideal)) (b : Fin 16) :
    Host.divf (F := Ideal)
        (Host.reduceAdd (F := Ideal) o0 (constant (F := Ideal) S_ .f32 0x00000000#32) reducesTo_S16x4096x1_S16_d1_2 h_S_)
        (broadcastInDim S16 ![] bcast_S_S16 (constant (F := Ideal) S_ .f32 0x45800000#32)) (ix1 b)
      = Ideal.div (Cert.Chamfer.zero32 + ∑ n : Fin 4096, o0 (ix3 b n (0 : Fin 1))) Cert.Chamfer.count32 := by
  rw [hostDivf_apply, sum_rows]
  rfl

/-- The mean over the points of the second table, at the set b. -/
theorem mean_cols (o1 : (⟨S16x1x4096, .f32⟩ : BufTy).Contents (Elt Ideal)) (b : Fin 16) :
    Host.divf (F := Ideal)
        (Host.reduceAdd (F := Ideal) o1 (constant (F := Ideal) S_ .f32 0x00000000#32) reducesTo_S16x1x4096_S16_d1_2 h_S_)
        (broadcastInDim S16 ![] bcast_S_S16 (constant (F := Ideal) S_ .f32 0x45800000#32)) (ix1 b)
      = Ideal.div (Cert.Chamfer.zero32 + ∑ m : Fin 4096, o1 (ix3 b (0 : Fin 1) m)) Cert.Chamfer.count32 := by
  rw [hostDivf_apply, sum_cols]
  rfl

/-! ## The composition -/

/-- The host operations after the kernel compute the specification's mean of means of the kernel's two tables. -/
theorem hostTail_eq (o0 : (⟨S16x4096x1, .f32⟩ : BufTy).Contents (Elt Ideal)) (o1 : (⟨S16x1x4096, .f32⟩ : BufTy).Contents (Elt Ideal)) :
    hostTail o0 o1 = fun _ => Cert.Chamfer.meanOfMeans (fun b n => o0 (ix3 b n 0)) (fun b m => o1 (ix3 b 0 m)) := by
  funext i
  unfold hostTail Cert.Chamfer.meanOfMeans
  rw [hostDivf_apply, sum_sets]
  refine congrArg₂ Ideal.div (congrArg₂ (· + ·) rfl (Finset.sum_congr rfl fun j _ => ?_)) rfl
  obtain ⟨b, rfl⟩ : ∃ b : Fin 16, j = ix1 b := ⟨j 0, eq_ix1 j⟩
  exact congrArg₂ (· + ·) (mean_rows o0 b) (mean_cols o1 b)

end Cert.KernelIdeal.TailValue

end
-- ==== Proof.KernelRun.lean ====
/-
  The kernel program's run at the ideal instance, with its result named.

  After the kernel region the program applies its host operations — the two means over the points, their sum, the
  mean over the sets — to the kernel's two result arrays. The region leaves those arrays at the per-point distances
  (Arrays); the host operations of them are the specification's mean of means (HostTail); so the program's result is
  the Chamfer distance of its two argument arrays, and the arguments end unchanged.
-/
import proofs.«151696_j60146722013762_2_alg».proof.Proof.Arrays
import proofs.«151696_j60146722013762_2_alg».proof.Proof.HostTail
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.Chamfer Cert.KernelIdeal.Invariant Cert.KernelIdeal.Arrays
  Cert.KernelIdeal.TailValue

variable (m : (ℓ : Loc nD τ sig) → Buf (Elt Ideal) ℓ) (ρ : Dev nD → PrngReg)

/-- The per-point distances, read along their unit axes, are the specification's tables. -/
theorem tables_eq (A B : Sets) :
    meanOfMeans (fun b n => nearY A B (ix3 b n (0 : Fin 1))) (fun b q => nearX A B (ix3 b (0 : Fin 1) q)) = chamfer A B := rfl

/-- The host operations after the region, applied to what the region leaves, give the Chamfer distance. -/
theorem result_eq (c : Dev nD) :
    Pipeline.afterTail₀ cfgs (dats m) 0 (V0 m) [hostOps1] c main_v9 = fun _ => chamfer (argX m c) (argY m c) := by
  unfold Pipeline.afterTail₀
  show StableHlo.after hostOps1 _ (Proc.devRef .tc main_v9) = _
  after_results
  have e2 : Pipeline.withArrays (cfgs 0).spec c (V0 m c) (fun w => (dats m 0 c).arrAt w (cfgs 0).N) (Proc.tc.devRef main_v0_0)
      = nearY (argX m c) (argY m c) :=
    (Pipeline.withArrays_arr spec0 launch0.win.arr_inj c _ _ 2).trans (final2 m c)
  have e3 : Pipeline.withArrays (cfgs 0).spec c (V0 m c) (fun w => (dats m 0 c).arrAt w (cfgs 0).N) (Proc.tc.devRef main_v0_1)
      = nearX (argX m c) (argY m c) :=
    (Pipeline.withArrays_arr spec0 launch0.win.arr_inj c _ _ 3).trans (final3 m c)
  rw [e2, e3]
  exact (hostTail_eq (nearY (argX m c) (argY m c)) (nearX (argX m c) (argY m c))).trans
    (funext fun _ => tables_eq (argX m c) (argY m c))

/-- The program's result buffer is no array of the kernel region: the host writes it after the region. -/
theorem result_rest : main_v9 ∈ Pipeline.restRefs sig (cfgs 0).spec :=
  Pipeline.mem_restRefs_of main_v9 rfl (by decide)

/-- The run of the idealized kernel program: every weakly fair execution ends with the result at the Chamfer
    distance of the argument arrays, and the argument arrays unchanged. -/
theorem run : θ_run defs (onTc (τ := τ) (main (F := Ideal))) ⟨m, fun _ => 0, ρ⟩ fun r => ∀ c : Dev nD,
      r.2.mem ((c.tc : Thread nD τ).loc main_v9) = (fun _ => chamfer (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v9 result_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.RefStages.lean ====
/-
  The reference computes the Chamfer distance of the specification, stage by stage.

  Read at the pair of sets b, point n of the first batch and point m of the second, its table of squared
  distances is  |x_n|² + |y_m|² - 2 · ⟨x_n, y_m⟩ : the two squared norms are sums over the 64 coordinates
  started from the word 0, which is the real 0 and so disappears; each is spread over the other batch's
  points, so that entry (b, n, m) of the first reads row (b, n) and of the second row (b, m); the cross term
  is the contraction over the coordinate axis, times the word 2.0. A minimum along the last axis of the table,
  taken from the word of +∞, is the fold of min over the points m at fixed (b, n); along the middle axis, over
  the points n at fixed (b, m): the table index over a reduced index with one coordinate put back is
  (b, n, m) in both cases. What follows the two minima is pointwise: a sum over the 4096 points from the word
  0 divided by the word 4096.0, twice, their sum, a sum over the 16 sets from the word 0 divided by the word
  16.0 — the mean of means of the specification, with the same words in the same places.
-/
import proofs.«151696_j60146722013762_2_alg».proof.Proof.Gen.ReferenceIdeal.Read
import proofs.«151696_j60146722013762_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- A batch of point sets, as the reference's arguments are typed. -/
local notation "Pts" => BufTy.Contents (Elt Ideal) (BufTy.mk S16x4096x64 EltTy.f32)

/-! ## The squared norms, the cross term and the squared distance -/

/-- The squared norm of point n of the first batch: the sum from 0 of the squares of its coordinates. -/
theorem v1_at (x : Pts) (b : Fin 16) (n : Fin 4096) :
    val_main_v1 (F := Ideal) x (ix2 b n) = Cert.Chamfer.sqNorm x b n := by
  rw [val_main_v1_apply, val_main_cst_apply, Ideal.ofBits_def, Ideal.ofBits_zero_f32, zero_add]
  unfold Cert.Chamfer.sqNorm
  refine Finset.sum_congr rfl fun k _ => ?_
  have e : idx_main_v1 (ix2 b n) k = ix3 b n k :=
    funext fun a => Fin.ext (by match a with | ⟨0, _⟩ => rfl | ⟨1, _⟩ => rfl | ⟨2, _⟩ => rfl)
  rw [val_main_v0_apply, Ideal.mulf_def, e]

/-- The squared norm of point m of the second batch. -/
theorem v3_at (y : Pts) (b : Fin 16) (m : Fin 4096) :
    val_main_v3 (F := Ideal) y (ix2 b m) = Cert.Chamfer.sqNorm y b m := by
  rw [val_main_v3_apply, val_main_cst_0_apply, Ideal.ofBits_def, Ideal.ofBits_zero_f32, zero_add]
  unfold Cert.Chamfer.sqNorm
  refine Finset.sum_congr rfl fun k _ => ?_
  have e : idx_main_v3 (ix2 b m) k = ix3 b m k :=
    funext fun a => Fin.ext (by match a with | ⟨0, _⟩ => rfl | ⟨1, _⟩ => rfl | ⟨2, _⟩ => rfl)
  rw [val_main_v2_apply, Ideal.mulf_def, e]

/-- The contraction over the coordinate axis at (b, n, m) is the inner product of x_n and y_m. -/
theorem v4_at (x y : Pts) (b : Fin 16) (n m : Fin 4096) :
    val_main_v4 (F := Ideal) x y (ix3 b n m) = Cert.Chamfer.inner x y b n m := by
  rw [val_main_v4_apply]
  unfold Cert.Chamfer.inner
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The first batch's squared norms spread over the second batch's points: entry (b, n, m) is row (b, n). -/
theorem v7_at (x : Pts) (b : Fin 16) (n m : Fin 4096) :
    val_main_v7 (F := Ideal) x (ix3 b n m) = Cert.Chamfer.sqNorm x b n := by
  have e : idx_main_v5 (idx_main_v7 (ix3 b n m)) = ix2 b n :=
    funext fun a => Fin.ext (by match a with | ⟨0, _⟩ => rfl | ⟨1, _⟩ => rfl)
  rw [val_main_v7_apply, val_main_v5_apply, e]
  exact v1_at x b n

/-- The second batch's squared norms spread over the first batch's points: entry (b, n, m) is row (b, m). -/
theorem v8_at (y : Pts) (b : Fin 16) (n m : Fin 4096) :
    val_main_v8 (F := Ideal) y (ix3 b n m) = Cert.Chamfer.sqNorm y b m := by
  have e : idx_main_v6 (idx_main_v8 (ix3 b n m)) = ix2 b m :=
    funext fun a => Fin.ext (by match a with | ⟨0, _⟩ => rfl | ⟨1, _⟩ => rfl)
  rw [val_main_v8_apply, val_main_v6_apply, e]
  exact v3_at y b m

/-- The factor of the cross term, everywhere the word of 2.0. -/
theorem v10_at (b : Fin 16) (n m : Fin 4096) :
    val_main_v10 (F := Ideal) (ix3 b n m) = Cert.Chamfer.two32 := by
  rw [val_main_v10_apply, val_main_cst_1_apply, Ideal.ofBits_def]
  rfl

/-- The table of squared distances at (b, n, m). -/
theorem v12_at (x y : Pts) (b : Fin 16) (n m : Fin 4096) :
    val_main_v12 (F := Ideal) x y (ix3 b n m) = Cert.Chamfer.dist x y b n m := by
  rw [val_main_v12_apply, val_main_v9_apply, val_main_v11_apply, v7_at, v8_at, v10_at, v4_at,
    Ideal.subf_def, Ideal.addf_def, Ideal.mulf_def]
  rfl

/-! ## The two minima -/

/-- The table without its last axis is the array of (b, n). -/
theorem reduces_d2 : S16x4096x4096.Reduces [2] S16x4096 := by decide

/-- The table without its middle axis is the array of (b, m). -/
theorem reduces_d1 : S16x4096x4096.Reduces [1] S16x4096 := by decide

/-- Over (b, n), with m put back on the last axis: (b, n, m). -/
theorem lift_d2 (b : Fin 16) (n m : Fin 4096) : reduces_d2.lift (ix2 b n) m = ix3 b n m :=
  funext fun c => Fin.ext (by match c with | ⟨0, _⟩ => rfl | ⟨1, _⟩ => rfl | ⟨2, _⟩ => rfl)

/-- Over (b, m), with n put back on the middle axis: (b, n, m). -/
theorem lift_d1 (b : Fin 16) (n m : Fin 4096) : reduces_d1.lift (ix2 b m) n = ix3 b n m :=
  funext fun c => Fin.ext (by match c with | ⟨0, _⟩ => rfl | ⟨1, _⟩ => rfl | ⟨2, _⟩ => rfl)

/-- The minimum along the last axis at (b, n): from the word of +∞, the fold of min over the second batch's points. -/
theorem v13_at (x y : Pts) (b : Fin 16) (n : Fin 4096) :
    val_main_v13 (F := Ideal) x y (ix2 b n) = Cert.Chamfer.toNearestY x y b n := by
  have key := Host.reduce_eq_fold_single (s := S16x4096x4096) (t := S16x4096) (u := S_)
    (FloatOps.minimumf (F := Ideal) (φ := .f32)) (val_main_v12 (F := Ideal) x y) (val_main_cst_2 (F := Ideal))
    reducesTo_S16x4096x4096_S16x4096_d2 reduces_d2 h_S_ (ix2 b n)
  have hf : (val_main_v12 (F := Ideal) x y ∘ reduces_d2.lift (ix2 b n))
      = fun m : Fin 4096 => Cert.Chamfer.dist x y b n m :=
    funext fun m => (congrArg (val_main_v12 (F := Ideal) x y) (lift_d2 b n m)).trans (v12_at x y b n m)
  exact key.trans
    (congrArg (fun f => Finset.fold min Cert.Chamfer.inf32 f (Finset.univ : Finset (Fin 4096))) hf)

/-- The minimum along the middle axis at (b, m): the fold of min over the first batch's points. -/
theorem v14_at (x y : Pts) (b : Fin 16) (m : Fin 4096) :
    val_main_v14 (F := Ideal) x y (ix2 b m) = Cert.Chamfer.toNearestX x y b m := by
  have key := Host.reduce_eq_fold_single (s := S16x4096x4096) (t := S16x4096) (u := S_)
    (FloatOps.minimumf (F := Ideal) (φ := .f32)) (val_main_v12 (F := Ideal) x y) (val_main_cst_3 (F := Ideal))
    reducesTo_S16x4096x4096_S16x4096_d1 reduces_d1 h_S_ (ix2 b m)
  have hf : (val_main_v12 (F := Ideal) x y ∘ reduces_d1.lift (ix2 b m))
      = fun n : Fin 4096 => Cert.Chamfer.dist x y b n m :=
    funext fun n => (congrArg (val_main_v12 (F := Ideal) x y) (lift_d1 b n m)).trans (v12_at x y b n m)
  exact key.trans
    (congrArg (fun f => Finset.fold min Cert.Chamfer.inf32 f (Finset.univ : Finset (Fin 4096))) hf)

/-! ## The means -/

/-- Set j's sum, from the word 0, of the distances from the first batch's points to the second set. -/
theorem v15_at (x y : Pts) (j : (⟨1, ![16]⟩ : Shape).Idx) :
    val_main_v15 (F := Ideal) x y j
      = Cert.Chamfer.zero32 + ∑ n : Fin 4096, Cert.Chamfer.toNearestY x y ⟨(j 0).val, (j 0).isLt⟩ n := by
  rw [val_main_v15_apply, val_main_cst_4_apply, Ideal.ofBits_def]
  refine congrArg (Cert.Chamfer.zero32 + ·) (Finset.sum_congr rfl fun k _ => ?_)
  have e : idx_main_v15 j k = ix2 (⟨(j 0).val, (j 0).isLt⟩ : Fin 16) k :=
    funext fun a => Fin.ext (by match a with | ⟨0, _⟩ => rfl | ⟨1, _⟩ => rfl)
  rw [e]
  exact v13_at x y _ k

/-- Set j's sum, from the word 0, of the distances from the second batch's points to the first set. -/
theorem v18_at (x y : Pts) (j : (⟨1, ![16]⟩ : Shape).Idx) :
    val_main_v18 (F := Ideal) x y j
      = Cert.Chamfer.zero32 + ∑ n : Fin 4096, Cert.Chamfer.toNearestX x y ⟨(j 0).val, (j 0).isLt⟩ n := by
  rw [val_main_v18_apply, val_main_cst_6_apply, Ideal.ofBits_def]
  refine congrArg (Cert.Chamfer.zero32 + ·) (Finset.sum_congr rfl fun k _ => ?_)
  have e : idx_main_v18 j k = ix2 (⟨(j 0).val, (j 0).isLt⟩ : Fin 16) k :=
    funext fun a => Fin.ext (by match a with | ⟨0, _⟩ => rfl | ⟨1, _⟩ => rfl)
  rw [e]
  exact v14_at x y _ k

/-- The first mean of set j: its sum over the word of 4096.0. -/
theorem v17_at (x y : Pts) (j : (⟨1, ![16]⟩ : Shape).Idx) :
    val_main_v17 (F := Ideal) x y j
      = Ideal.div (Cert.Chamfer.zero32 + ∑ n : Fin 4096, Cert.Chamfer.toNearestY x y ⟨(j 0).val, (j 0).isLt⟩ n)
          Cert.Chamfer.count32 := by
  rw [val_main_v17_apply, v15_at, val_main_v16_apply, val_main_cst_5_apply, Ideal.ofBits_def, Ideal.hostDivf_def]
  rfl

/-- The second mean of set j. -/
theorem v20_at (x y : Pts) (j : (⟨1, ![16]⟩ : Shape).Idx) :
    val_main_v20 (F := Ideal) x y j
      = Ideal.div (Cert.Chamfer.zero32 + ∑ n : Fin 4096, Cert.Chamfer.toNearestX x y ⟨(j 0).val, (j 0).isLt⟩ n)
          Cert.Chamfer.count32 := by
  rw [val_main_v20_apply, v18_at, val_main_v19_apply, val_main_cst_7_apply, Ideal.ofBits_def, Ideal.hostDivf_def]
  rfl

/-- Set j's term of the outer mean: the sum of its two means. -/
theorem v21_at (x y : Pts) (j : (⟨1, ![16]⟩ : Shape).Idx) :
    val_main_v21 (F := Ideal) x y j
      = Ideal.div (Cert.Chamfer.zero32 + ∑ n : Fin 4096, Cert.Chamfer.toNearestY x y ⟨(j 0).val, (j 0).isLt⟩ n)
            Cert.Chamfer.count32
        + Ideal.div (Cert.Chamfer.zero32 + ∑ n : Fin 4096, Cert.Chamfer.toNearestX x y ⟨(j 0).val, (j 0).isLt⟩ n)
            Cert.Chamfer.count32 := by
  rw [val_main_v21_apply, v17_at, v20_at, Ideal.addf_def]

/-- The reference's result, at its one index, is the Chamfer distance of the two batches. -/
theorem result_eq (x y : (⟨S16x4096x64, .f32⟩ : BufTy).Contents (Elt Ideal)) :
    Cert.ReferenceIdeal.Read.val_main_v23 (F := Ideal) x y = fun _ => Cert.Chamfer.chamfer x y := by
  funext i
  show val_main_v23 (F := Ideal) x y i = Cert.Chamfer.chamfer x y
  rw [val_main_v23_apply, val_main_v22_apply, val_main_cst_8_apply, val_main_cst_9_apply, Ideal.hostDivf_def,
    Ideal.ofBits_def, Ideal.ofBits_def]
  unfold Cert.Chamfer.chamfer Cert.Chamfer.meanOfMeans
  exact congrArg₂ Ideal.div
    (congrArg (Cert.Chamfer.zero32 + ·) (Finset.sum_congr rfl fun j _ => v21_at x y j)) rfl

end Cert.ReferenceIdeal.RefValue

end
-- ==== Proof.lean ====
/-
  The certificate of the Chamfer-distance kernel against its jnp reference.

  Both programs take two batches of 16 sets of 4096 points with 64 coordinates and return one number: the mean, over
  the 16 sets, of (the mean over the first set's points of the squared distance to the nearest point of the second
  set) plus (the same with the roles swapped), every squared distance written |x|² + |y|² − 2⟨x, y⟩.

  The reference forms all 4096 × 4096 distances of a set at once and takes the two minima. The kernel walks a grid of
  16 sets × 8 tiles: at each point it forms the distances of the whole first set against one tile of 512 points of
  the second set; the column minima of the tile are final at once (second result), the row minima join a running
  minimum kept in a scratch buffer across the 8 tiles of a set and are written out after the last (first result);
  the host then takes the means. On the extended reals the two agree with no side condition: the three sums over the
  64 coordinates are the same sums, the cross term's matrix product on rounded operands is the plain product (a
  change of float format is the identity), and a minimum over 4096 points taken tile by tile, starting from +∞ and
  meeting +∞ again at the first tile, is the minimum over the 4096 points — the minimum is associative, commutative
  and idempotent (Spec). The means are the same host operations on both sides, over a unit axis more on the kernel's.

  The three frames are the generated frame runs (for the reference, its generated run with the result dropped);
  the kernel's idealization rewrote nothing, so `preserves` is `True`; `algebraic` puts the kernel program's run
  (KernelRun) beside the reference's generated run read at its stages (RefStages): both end at `Cert.Chamfer.chamfer`
  of arguments that agree.
-/
import proofs.«151696_j60146722013762_2_alg».proof.Defs
import proofs.«151696_j60146722013762_2_alg».proof.Proof.Gen.Kernel
import proofs.«151696_j60146722013762_2_alg».proof.Proof.Gen.Kernel.Frame
import proofs.«151696_j60146722013762_2_alg».proof.Proof.Gen.KernelIdeal
import proofs.«151696_j60146722013762_2_alg».proof.Proof.Gen.KernelIdeal.Frame
import proofs.«151696_j60146722013762_2_alg».proof.Proof.Gen.ReferenceIdeal
import proofs.«151696_j60146722013762_2_alg».proof.Proof.Gen.ReferenceIdeal.Run
import proofs.«151696_j60146722013762_2_alg».proof.Proof.Gen.Pre_finite_inputs
import proofs.«151696_j60146722013762_2_alg».proof.Proof.KernelRun
import proofs.«151696_j60146722013762_2_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both idealized programs end at the Chamfer distance of their arguments, which agree. -/
theorem algebraic : Cert.algebraic_KernelIdeal_ReferenceIdeal := by
  intro m ρ m' ρ' _ hagree
  refine ⟨fun c => fun _ => Cert.Chamfer.chamfer (Cert.KernelIdeal.Invariant.argX m c) (Cert.KernelIdeal.Invariant.argY m c),
    Cert.KernelIdeal.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
